-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 67
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its result buffer named.

  The program is six segments: three stretches of host operations, the first layer's region, one more stretch,
  the second layer's region. Each segment's end state holds every unscoped buffer of the core at a known
  valuation: after a stretch the fold of its operations over the valuation before it, after a region the valuation
  before it with the region's arrays at what the pipeline leaves in them. So every weakly fair execution terminates
  with every unscoped buffer — the result `main_v44` among them, and the eight arguments — at the last valuation
  `W6`; the arguments' entries of `W6` are the launch contents.
-/
import proofs.«154697_j62981400429144_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    valuation's entry for it and the argument arrays as launched. -/
theorem run_out : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«154697_j62981400429144_1_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.Layer.lean ====
/-
  One graph-convolution layer as a function of whole arrays, at the ideal values.

  For an array of n rows, entry (r, c) of `lin agg x Wl Wr b` is
      (Σ_d agg[r,d]·Wl[d,c]  +  Σ_d x[r,d]·Wr[d,c])  +  b[0,c] :
  the neighbours' mean through the left weights, the node's own row through the right weights, the bias row.
  `relu` clamps every entry below at zero.

  Two programs compute it. The kernel's body rounds its four operands to bf16 (the identity at the ideal values),
  multiplies into zero accumulators, adds the two products and THEN the bias row broadcast over the rows
  (`body_lin`). The host adds the bias to the left product FIRST and the right product last, the bias a vector
  laid as one row and broadcast (`host_lin`). On the extended reals addition is commutative and associative
  with no side condition, so the two orders agree entry by entry; no finiteness is used.
-/
import Idealize.ShloMosaic.PureOps.Ideal.Laws
import Idealize.ShloMosaic.Lib.ValueIdx
import Idealize.ShloMosaic.Lib.ValueLayout
import Idealize.ShloMosaic.Lib.Pipeline.Value
import proofs.«154697_j62981400429144_1_alg».proof.Proof.LibMatmulRead

open scoped BigOperators

noncomputable section

namespace Cert.Sage

open Idealize.ShloMosaic Idealize.ShloMosaic.ValueIdx Cert.GCN

/-- The zero the rectifier compares with, kept as the word both programs write. -/
abbrev zero32 : EReal := Ideal.ofBits .f32 0x00000000#32

/-- One layer before the rectifier: left product plus right product plus the bias row. -/
def lin {n : Nat} (agg x : Arr n 128) (Wl Wr : Arr 128 128) (b : Arr 1 128) : Arr n 128 :=
  fun i => (mm agg Wl i + mm x Wr i) + b (ix2 (0 : Fin 1) (i 1))

theorem lin_apply {n : Nat} (agg x : Arr n 128) (Wl Wr : Arr 128 128) (b : Arr 1 128) (r : Fin n) (c : Fin 128) :
    lin agg x Wl Wr b (ix2 r c) = (mm agg Wl (ix2 r c) + mm x Wr (ix2 r c)) + b (ix2 (0 : Fin 1) c) := rfl

/-- The rectifier: every entry clamped below at zero. -/
def relu {n : Nat} (v : Arr n 128) : Arr n 128 := fun i => max (v i) zero32

/-- The kernel body's arithmetic on n rows is `lin`: the roundings to bf16 are the identity, each product into
    the zero accumulator is the plain sum over the contracted coordinate, the bias row is read at the column. -/
theorem body_lin {n : Nat} (a x : FVec Ideal ⟨2, ![n, 128]⟩ .f32) (wl wr : FVec Ideal ⟨2, ![128, 128]⟩ .f32)
    (b : FVec Ideal ⟨2, ![1, 128]⟩ .f32) (hb : (⟨2, ![1, 128]⟩ : Shape).Broadcasts ⟨2, ![n, 128]⟩)
    (h16 : FTy.bf16.bits < FTy.f32.bits) :
    addf (addf (FloatOps.matmul (DotDims.plain n 128 128) none (truncf .bf16 a h16) (truncf .bf16 wl h16)
                  (constant ⟨2, ![n, 128]⟩ .f32 0x00000000#32))
               (FloatOps.matmul (DotDims.plain n 128 128) none (truncf .bf16 x h16) (truncf .bf16 wr h16)
                  (constant ⟨2, ![n, 128]⟩ .f32 0x00000000#32)))
         (broadcastTo ⟨2, ![n, 128]⟩ b hb) = (lin a x wl wr b : Arr n 128) := by
  funext i
  obtain ⟨r, c, rfl⟩ : ∃ (r : Fin n) (c : Fin 128), i = ix2 r c := ⟨i 0, i 1, eq_ix2 i⟩
  rw [lin_apply, addf_apply, addf_apply, matmul_plain_zero_apply, matmul_plain_zero_apply,
    broadcastTo_1b_ab_apply, mm_apply, mm_apply]
  rfl

/-- The host's layer on n rows is `lin` of the same arrays with the bias vector laid as one row: the bias is added
    before the right product there, after it in `lin`. -/
theorem host_lin {n : Nat} (agg x : FVec Ideal ⟨2, ![n, 128]⟩ .f32) (Wl Wr : FVec Ideal ⟨2, ![128, 128]⟩ .f32)
    (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![n, 128]⟩ ![0, 1])
    (hc : (⟨1, ![128]⟩ : Shape).ShapeCasts ⟨2, ![1, 128]⟩) :
    addf (addf (FloatOps.dotGeneral (DotDims.plain n 128 128) none .single agg Wl)
               (broadcastInDim ⟨2, ![n, 128]⟩ ![0, 1] h2 (broadcastInDim ⟨2, ![1, 128]⟩ ![1] h1 b)))
         (FloatOps.dotGeneral (DotDims.plain n 128 128) none .single x Wr)
      = (lin agg x Wl Wr (shapeCast ⟨2, ![1, 128]⟩ b hc) : Arr n 128) := by
  funext i
  obtain ⟨r, c, rfl⟩ : ∃ (r : Fin n) (c : Fin 128), i = ix2 r c := ⟨i 0, i 1, eq_ix2 i⟩
  have e1 : broadcastInDim ⟨2, ![n, 128]⟩ ![0, 1] h2 (broadcastInDim ⟨2, ![1, 128]⟩ ![1] h1 b) (ix2 r c) = b (ix1 c) := by
    rw [broadcastInDim_apply ![0, 1] h2 _ (ix2 r c) (ix2 (0 : Fin 1) c) (fun a => by
      match a with
      | ⟨0, _⟩ => rfl
      | ⟨1, _⟩ => rfl)]
    exact broadcastInDim_apply ![1] h1 b (ix2 (0 : Fin 1) c) (ix1 c) (fun a => by
      match a with
      | ⟨0, _⟩ => rfl)
  rw [lin_apply, addf_apply, addf_apply, e1, Cert.LibDot.dotGeneral_plain_apply, Cert.LibDot.dotGeneral_plain_apply,
    shapeCast_a_1a_apply, mm_apply, mm_apply]
  exact add_right_comm _ _ _

end Cert.Sage

end
-- ==== Proof.Region0.lean ====
/-
  The first layer's kernel as a function of whole arrays.

  The kernel runs on a grid of 20 points; point t holds rows 5000·t … 5000·t + 4999 of the aggregated-neighbour array
  and of the node array, and the whole of the two weight matrices and of the bias row. Its body stores
  `relu (lin …)` of those blocks (Layer.lean). Entry (p, q) of `lin` of the blocks depends on row p of the two row
  blocks only, which is row 5000·t + p of the arrays: so what point t writes back is block t of `relu (lin …)` of the
  WHOLE arrays, and since the 20 blocks tile the 100000 rows the output array ends holding exactly that function
  of the arrays the region found on entry.
-/
import proofs.«154697_j62981400429144_1_alg».proof.Proof.Gen.KernelIdeal.Frame
import proofs.«154697_j62981400429144_1_alg».proof.Proof.Layer
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen Cert.Sage Cert.GCN

variable (V : (c : Dev nD) → (b : Ref sig .tc) → Buf (Elt Ideal) ((c : Thread nD τ).loc b))

theorem hz : (![0, 0] : Fin 2 → Nat) = fun _ => 0 := funext fun a => by fin_cases a <;> rfl

/-- The body's stored value is the rectified layer of its loaded blocks. -/
theorem pay_eq (a x : Vec Ideal S5000x128 .f32) (wl wr : Vec Ideal S128x128 .f32) (b : Vec Ideal S1x128 .f32) :
    k0_pay1 (F := Ideal) a x wl wr b = (relu (lin a x wl wr b) : Arr 5000 128) := by
  have h := body_lin (n := 5000) a x wl wr b Facts₀.broadcasts_S1x128_S5000x128 Facts₀.bitsLt_bf16_f32
  unfold k0_pay1
  simp only [shapeCast_self]
  funext i
  exact congrArg (fun z => max z zero32) (congrFun h i)

/-- The output's index map walks the row blocks in order; the row windows move with it; the weight and bias windows
    stay at their one block. Decided over the 20 points. -/
theorem idx_facts : ∀ t : Fin cfg0.N,
      win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of point t's block is row 5000·t + p of the array. -/
def row (t : Fin cfg0.N) (p : Fin 5000) : Fin 100000 :=
  ⟨t.val * 5000 + p.val, by have h := t.isLt; have hN : cfg0.N = 20 := N_0; have := p.isLt; omega⟩

/-- Where an element of the output's block sits in the output array. -/
theorem emb5 (t : Fin cfg0.N) (p : Fin 5000) (q : Fin 128) :
    ((cfg0.win 5).blk t).view.emb (ix2 p q) = ix2 (row t p) q := by
  obtain ⟨e0, e1, -⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The aggregated-neighbour block at point t, read at (p, d). -/
theorem blk0 (c : Dev nD) (t : Fin cfg0.N) (p : Fin 5000) (d : Fin 128) :
    iblk0 V c 0 t (ix2 p d) = V c main_v27 (ix2 (row t p) d) := by
  obtain ⟨-, -, e0, e1, -⟩ := idx_facts t
  show V c main_v27 (((cfg0.win 0).blk t).view.emb (ix2 p d)) = V c main_v27 (ix2 (row t p) d)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * d.val = d.val; omega

/-- The node block at point t, read at (p, d). -/
theorem blk1 (c : Dev nD) (t : Fin cfg0.N) (p : Fin 5000) (d : Fin 128) :
    iblk0 V c 1 t (ix2 p d) = V c main_arg0 (ix2 (row t p) d) := by
  obtain ⟨-, -, -, -, e0, e1, -⟩ := idx_facts t
  show V c main_arg0 (((cfg0.win 1).blk t).view.emb (ix2 p d)) = V c main_arg0 (ix2 (row t p) d)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * d.val = d.val; omega

/-- The left weights' one block is the whole matrix. -/
theorem blk2 (c : Dev nD) (t : Fin cfg0.N) : iblk0 V c 2 t = V c main_arg1 := by
  obtain ⟨-, -, -, -, -, -, e0, e1, -⟩ := idx_facts t
  funext y
  show V c main_arg1 (((cfg0.win 2).blk t).view.emb y) = V c main_arg1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's one block is the whole row. -/
theorem blk3 (c : Dev nD) (t : Fin cfg0.N) : iblk0 V c 3 t = V c main_v28 := by
  obtain ⟨-, -, -, -, -, -, -, -, e0, e1, -⟩ := idx_facts t
  funext y
  show V c main_v28 (((cfg0.win 3).blk t).view.emb y) = V c main_v28 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The right weights' one block is the whole matrix. -/
theorem blk4 (c : Dev nD) (t : Fin cfg0.N) : iblk0 V c 4 t = V c main_arg3 := by
  obtain ⟨-, -, -, -, -, -, -, -, -, -, e0, e1⟩ := idx_facts t
  funext y
  show V c main_arg3 (((cfg0.win 4).blk t).view.emb y) = V c main_arg3 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The layer of the whole arrays the region finds on entry. -/
def G (c : Dev nD) : Arr 100000 128 :=
  relu (lin (V c main_v27) (V c main_arg0) (V c main_arg1) (V c main_arg3) (V c main_v28))

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay_eq, blk2 V c t, blk3 V c t, blk4 V c t]
  funext j
  obtain ⟨p, q, rfl⟩ : ∃ (p : Fin 5000) (q : Fin 128), j = ix2 p q := ⟨j 0, j 1, eq_ix2 j⟩
  show max (lin (iblk0 V c 0 t) (iblk0 V c 1 t) (V c main_arg1) (V c main_arg3) (V c main_v28) (ix2 p q)) zero32
     = max (lin (V c main_v27) (V c main_arg0) (V c main_arg1) (V c main_arg3) (V c main_v28)
         (((cfg0.win 5).blk t).view.emb (ix2 p q))) zero32
  rw [emb5 t p q, lin_apply, lin_apply, mm_apply, mm_apply, mm_apply, mm_apply]
  simp only [blk0 V c t p, blk1 V c t p]

/-- An index of the output array is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The 20 blocks cover the output array: row r is in block r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by omega⟩, flush0_5 _, ?_⟩
  rw [mem_blk]
  obtain ⟨e0, e1, -⟩ := idx_facts ⟨(i 0).val / 5000, by omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e1]; omega

/-- THE OUTPUT ARRAY after the region: the rectified layer of the arrays found on entry. -/
theorem final (c : Dev nD) : (dat0 V c).arrAt 5 cfg0.N = G V c :=
  (dat0 V c).arrAt_eq_of_cover 5 (G V c) (fun t _ => flushed_eq V c t) cover

end Cert.KernelIdeal.Layer0

end
-- ==== Proof.Region1.lean ====
/-
  The second layer's kernel as a function of whole arrays.

  The same grid of 20 row blocks as the first layer's kernel, reading the second aggregation and the first layer's
  output; its body stores `lin …` of its blocks with no rectifier. As there, entry (p, q) of the block's value
  depends on row p of the two row blocks only, so point t writes back block t of `lin …` of the WHOLE arrays, the 20
  blocks tile the rows, and the output array ends holding that function of the arrays the region found on entry.
-/
import proofs.«154697_j62981400429144_1_alg».proof.Proof.Gen.KernelIdeal.Frame
import proofs.«154697_j62981400429144_1_alg».proof.Proof.Layer
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen Cert.Sage Cert.GCN

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its loaded blocks. -/
theorem pay_eq (a x : Vec Ideal S5000x128 .f32) (wl wr : Vec Ideal S128x128 .f32) (b : Vec Ideal S1x128 .f32) :
    k1_pay1 (F := Ideal) a x wl wr b = (lin a x wl wr b : Arr 5000 128) := by
  have h := body_lin (n := 5000) a x wl wr b Facts₀.broadcasts_S1x128_S5000x128 Facts₀.bitsLt_bf16_f32
  unfold k1_pay1
  simp only [shapeCast_self]
  exact h

/-- The output's index map walks the row blocks in order; the row windows move with it; the weight and bias windows
    stay at their one block. Decided over the 20 points. -/
theorem idx_facts : ∀ t : Fin cfg1.N,
      win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p of point t's block is row 5000·t + p of the array. -/
def row (t : Fin cfg1.N) (p : Fin 5000) : Fin 100000 :=
  ⟨t.val * 5000 + p.val, by have h := t.isLt; have hN : cfg1.N = 20 := N_1; have := p.isLt; omega⟩

/-- Where an element of the output's block sits in the output array. -/
theorem emb5 (t : Fin cfg1.N) (p : Fin 5000) (q : Fin 128) :
    ((cfg1.win 5).blk t).view.emb (ix2 p q) = ix2 (row t p) q := by
  obtain ⟨e0, e1, -⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- The aggregated-neighbour block at point t, read at (p, d). -/
theorem blk0 (c : Dev nD) (t : Fin cfg1.N) (p : Fin 5000) (d : Fin 128) :
    iblk1 V c 0 t (ix2 p d) = V c main_v42 (ix2 (row t p) d) := by
  obtain ⟨-, -, e0, e1, -⟩ := idx_facts t
  show V c main_v42 (((cfg1.win 0).blk t).view.emb (ix2 p d)) = V c main_v42 (ix2 (row t p) d)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * d.val = d.val; omega

/-- The node block at point t, read at (p, d). -/
theorem blk1 (c : Dev nD) (t : Fin cfg1.N) (p : Fin 5000) (d : Fin 128) :
    iblk1 V c 1 t (ix2 p d) = V c main_v29 (ix2 (row t p) d) := by
  obtain ⟨-, -, -, -, e0, e1, -⟩ := idx_facts t
  show V c main_v29 (((cfg1.win 1).blk t).view.emb (ix2 p d)) = V c main_v29 (ix2 (row t p) d)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * d.val = d.val; omega

/-- The left weights' one block is the whole matrix. -/
theorem blk2 (c : Dev nD) (t : Fin cfg1.N) : iblk1 V c 2 t = V c main_arg4 := by
  obtain ⟨-, -, -, -, -, -, e0, e1, -⟩ := idx_facts t
  funext y
  show V c main_arg4 (((cfg1.win 2).blk t).view.emb y) = V c main_arg4 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's one block is the whole row. -/
theorem blk3 (c : Dev nD) (t : Fin cfg1.N) : iblk1 V c 3 t = V c main_v43 := by
  obtain ⟨-, -, -, -, -, -, -, -, e0, e1, -⟩ := idx_facts t
  funext y
  show V c main_v43 (((cfg1.win 3).blk t).view.emb y) = V c main_v43 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The right weights' one block is the whole matrix. -/
theorem blk4 (c : Dev nD) (t : Fin cfg1.N) : iblk1 V c 4 t = V c main_arg6 := by
  obtain ⟨-, -, -, -, -, -, -, -, -, -, e0, e1⟩ := idx_facts t
  funext y
  show V c main_arg6 (((cfg1.win 4).blk t).view.emb y) = V c main_arg6 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The layer of the whole arrays the region finds on entry. -/
def G (c : Dev nD) : Arr 100000 128 :=
  lin (V c main_v42) (V c main_v29) (V c main_arg4) (V c main_arg6) (V c main_v43)

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay_eq, blk2 V c t, blk3 V c t, blk4 V c t]
  funext j
  obtain ⟨p, q, rfl⟩ : ∃ (p : Fin 5000) (q : Fin 128), j = ix2 p q := ⟨j 0, j 1, eq_ix2 j⟩
  show lin (iblk1 V c 0 t) (iblk1 V c 1 t) (V c main_arg4) (V c main_arg6) (V c main_v43) (ix2 p q)
     = lin (V c main_v42) (V c main_v29) (V c main_arg4) (V c main_arg6) (V c main_v43)
         (((cfg1.win 5).blk t).view.emb (ix2 p q))
  rw [emb5 t p q, lin_apply, lin_apply, mm_apply, mm_apply, mm_apply, mm_apply]
  simp only [blk0 V c t p, blk1 V c t p]

/-- An index of the output array is in point t's block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- The 20 blocks cover the output array: row r is in block r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by omega⟩, flush1_5 _, ?_⟩
  rw [mem_blk]
  obtain ⟨e0, e1, -⟩ := idx_facts ⟨(i 0).val / 5000, by omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- THE OUTPUT ARRAY after the region: the layer of the arrays found on entry. -/
theorem final (c : Dev nD) : (dat1 V c).arrAt 5 cfg1.N = G V c :=
  (dat1 V c).arrAt_eq_of_cover 5 (G V c) (fun t _ => flushed_eq V c t) cover

end Cert.KernelIdeal.Layer1

end
-- ==== Proof.HostSide.lean ====
/-
  The host operations of the kernel program, stretch by stretch, as functions of what they read.

  Between and before the two regions the program computes, from the edge list `e` (row 0 the sources, row 1 the
  destinations):
    * `srcOf e`, `dstOf e`: the two rows as vectors;
    * `degInv d`: for every node, 1 / max(in-degree, 1) where the in-degree is positive and 0 elsewhere, the in-degree
      the scatter-sum of ones at the destinations;
    * `aggr feat s d dinv`: the mean of the neighbours' rows — the rows of `feat` gathered at the sources (a negative
      source wrapped by the node count), scatter-summed at the destinations, scaled row by row by `dinv`.
  Each stretch's fold over ANY valuation `U` of the core's buffers leaves these functions of `U`'s entries in the
  buffers it writes and every buffer it does not write as it was.
-/
import proofs.«154697_j62981400429144_1_alg».proof.Proof.Gen.KernelIdeal.Launch
import Idealize.ShloMosaic.Lib.StableHlo.Run

set_option maxRecDepth 16384

noncomputable section

namespace Cert.KernelIdeal.Glue

open Idealize.ShloMosaic Idealize.ShloMosaic.TcCoe Idealize.ShloMosaic.StableHlo
open Cert.KernelIdeal
open Facts₀

variable {F : FTy → Type} [FloatOps F]

/-- The edges' sources. -/
def srcOf (e : IVec S2x1600000 32) : IVec S1600000 32 :=
  shapeCast S1600000 (extractStridedSlice S1x1600000 ![0, 0] e slices_S2x1600000_S1x1600000_0_0) shapeCasts_S1x1600000_S1600000

/-- The edges' destinations. -/
def dstOf (e : IVec S2x1600000 32) : IVec S1600000 32 :=
  shapeCast S1600000 (extractStridedSlice S1x1600000 ![1, 0] e slices_S2x1600000_S1x1600000_1_0) shapeCasts_S1x1600000_S1600000

/-- The nodes' in-degrees: ones scatter-summed at the destinations. -/
def deg (d : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- 1 / max(in-degree, 1) where the in-degree is positive, 0 elsewhere. -/
def degInv (d : IVec S1600000 32) : FVec F S100000 .f32 :=
  select (cmpf (F := F) .ogt (deg d) (broadcastInDim S100000 ![] bcast_S_S100000 (constant S_ .f32 0x00000000#32)))
    (Host.divf (broadcastInDim S100000 ![] bcast_S_S100000 (constant S_ .f32 0x3F800000#32))
      (maximumf (deg d) (broadcastInDim S100000 ![] bcast_S_S100000 (constant S_ .f32 0x3F800000#32))))
    (broadcastInDim S100000 ![] bcast_S_S100000 (id (constant S_ .f32 0x00000000#32)))

/-- The mean of the neighbours' rows. -/
def aggr (feat : FVec F S100000x128 .f32) (s d : IVec S1600000 32) (dinv : FVec F S100000 .f32) : FVec F S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 feat
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0 dinv))

variable (U : Valuation τ sig (Elt F))

/-! ## The first two stretches: the edge rows and the inverse degrees -/

theorem pre_v1 : after Gen.hostOps0_1 (after Gen.hostOps0 U) (Proc.devRef .tc main_v1) = srcOf (U (Proc.devRef .tc main_arg7)) := by
  dsimp only [Gen.hostOps0_1, Gen.hostOps0]; after_results; rfl

theorem pre_v3 : after Gen.hostOps0_1 (after Gen.hostOps0 U) (Proc.devRef .tc main_v3) = dstOf (U (Proc.devRef .tc main_arg7)) := by
  dsimp only [Gen.hostOps0_1, Gen.hostOps0]; after_results; rfl

theorem pre_v14 : after Gen.hostOps0_1 (after Gen.hostOps0 U) (Proc.devRef .tc main_v14) = degInv (F := F) (dstOf (U (Proc.devRef .tc main_arg7))) := by
  dsimp only [Gen.hostOps0_1, Gen.hostOps0]; after_results; rfl

/-- The first two stretches write none of the float arguments. -/
theorem pre_arg0 : after Gen.hostOps0_1 (after Gen.hostOps0 U) (Proc.devRef .tc main_arg0) = U (Proc.devRef .tc main_arg0) := by
  dsimp only [Gen.hostOps0_1, Gen.hostOps0]; after_results
theorem pre_arg1 : after Gen.hostOps0_1 (after Gen.hostOps0 U) (Proc.devRef .tc main_arg1) = U (Proc.devRef .tc main_arg1) := by
  dsimp only [Gen.hostOps0_1, Gen.hostOps0]; after_results
theorem pre_arg2 : after Gen.hostOps0_1 (after Gen.hostOps0 U) (Proc.devRef .tc main_arg2) = U (Proc.devRef .tc main_arg2) := by
  dsimp only [Gen.hostOps0_1, Gen.hostOps0]; after_results
theorem pre_arg3 : after Gen.hostOps0_1 (after Gen.hostOps0 U) (Proc.devRef .tc main_arg3) = U (Proc.devRef .tc main_arg3) := by
  dsimp only [Gen.hostOps0_1, Gen.hostOps0]; after_results
theorem pre_arg4 : after Gen.hostOps0_1 (after Gen.hostOps0 U) (Proc.devRef .tc main_arg4) = U (Proc.devRef .tc main_arg4) := by
  dsimp only [Gen.hostOps0_1, Gen.hostOps0]; after_results
theorem pre_arg5 : after Gen.hostOps0_1 (after Gen.hostOps0 U) (Proc.devRef .tc main_arg5) = U (Proc.devRef .tc main_arg5) := by
  dsimp only [Gen.hostOps0_1, Gen.hostOps0]; after_results
theorem pre_arg6 : after Gen.hostOps0_1 (after Gen.hostOps0 U) (Proc.devRef .tc main_arg6) = U (Proc.devRef .tc main_arg6) := by
  dsimp only [Gen.hostOps0_1, Gen.hostOps0]; after_results

/-! ## The stretch before the first region: the first aggregation and the first bias as a row -/

set_option maxHeartbeats 1600000 in
theorem mid_v27 : after Gen.hostOps0_2 U (Proc.devRef .tc main_v27)
    = aggr (U (Proc.devRef .tc main_arg0)) (U (Proc.devRef .tc main_v1)) (U (Proc.devRef .tc main_v3)) (U (Proc.devRef .tc main_v14)) := by
  dsimp only [Gen.hostOps0_2]; after_results_simp; rfl

theorem mid_v28 : after Gen.hostOps0_2 U (Proc.devRef .tc main_v28)
    = shapeCast S1x128 (U (Proc.devRef .tc main_arg2)) shapeCasts_S128_S1x128 := by
  dsimp only [Gen.hostOps0_2]; after_results; rfl

theorem mid_arg0 : after Gen.hostOps0_2 U (Proc.devRef .tc main_arg0) = U (Proc.devRef .tc main_arg0) := by
  dsimp only [Gen.hostOps0_2]; after_results
theorem mid_arg1 : after Gen.hostOps0_2 U (Proc.devRef .tc main_arg1) = U (Proc.devRef .tc main_arg1) := by
  dsimp only [Gen.hostOps0_2]; after_results
theorem mid_arg3 : after Gen.hostOps0_2 U (Proc.devRef .tc main_arg3) = U (Proc.devRef .tc main_arg3) := by
  dsimp only [Gen.hostOps0_2]; after_results
theorem mid_arg4 : after Gen.hostOps0_2 U (Proc.devRef .tc main_arg4) = U (Proc.devRef .tc main_arg4) := by
  dsimp only [Gen.hostOps0_2]; after_results
theorem mid_arg5 : after Gen.hostOps0_2 U (Proc.devRef .tc main_arg5) = U (Proc.devRef .tc main_arg5) := by
  dsimp only [Gen.hostOps0_2]; after_results
theorem mid_arg6 : after Gen.hostOps0_2 U (Proc.devRef .tc main_arg6) = U (Proc.devRef .tc main_arg6) := by
  dsimp only [Gen.hostOps0_2]; after_results
theorem mid_v1 : after Gen.hostOps0_2 U (Proc.devRef .tc main_v1) = U (Proc.devRef .tc main_v1) := by
  dsimp only [Gen.hostOps0_2]; after_results
theorem mid_v3 : after Gen.hostOps0_2 U (Proc.devRef .tc main_v3) = U (Proc.devRef .tc main_v3) := by
  dsimp only [Gen.hostOps0_2]; after_results
theorem mid_v14 : after Gen.hostOps0_2 U (Proc.devRef .tc main_v14) = U (Proc.devRef .tc main_v14) := by
  dsimp only [Gen.hostOps0_2]; after_results

/-! ## The stretch between the regions: the second aggregation and the second bias as a row -/

set_option maxHeartbeats 1600000 in
theorem post_v42 : after Gen.hostOps1 U (Proc.devRef .tc main_v42)
    = aggr (U (Proc.devRef .tc main_v29)) (U (Proc.devRef .tc main_v1)) (U (Proc.devRef .tc main_v3)) (U (Proc.devRef .tc main_v14)) := by
  dsimp only [Gen.hostOps1]; after_results_simp; rfl

theorem post_v43 : after Gen.hostOps1 U (Proc.devRef .tc main_v43)
    = shapeCast S1x128 (U (Proc.devRef .tc main_arg5)) shapeCasts_S128_S1x128 := by
  dsimp only [Gen.hostOps1]; after_results; rfl

theorem post_v29 : after Gen.hostOps1 U (Proc.devRef .tc main_v29) = U (Proc.devRef .tc main_v29) := by
  dsimp only [Gen.hostOps1]; after_results
theorem post_arg4 : after Gen.hostOps1 U (Proc.devRef .tc main_arg4) = U (Proc.devRef .tc main_arg4) := by
  dsimp only [Gen.hostOps1]; after_results
theorem post_arg6 : after Gen.hostOps1 U (Proc.devRef .tc main_arg6) = U (Proc.devRef .tc main_arg6) := by
  dsimp only [Gen.hostOps1]; after_results

end Cert.KernelIdeal.Glue

end
-- ==== Proof.KernelValue.lean ====
/-
  The kernel program's result as a function of its arguments.

  With `e` the edge list, `s`, `d` its two rows and `dinv` the inverse in-degrees (HostSide.lean), the program's
  result is
      out  =  lin (aggr h s d dinv) h W2l W2r b2'      where   h = relu (lin (aggr x s d dinv) x W1l W1r b1')
  and `b1'`, `b2'` the bias vectors laid as rows: the first region leaves `h` in its output array (Region0.lean), the
  second `out` (Region1.lean), each reading what the stretch of host operations before it left (HostSide.lean); no
  stretch and no region writes a buffer an earlier step's value is later read from.
-/
import proofs.«154697_j62981400429144_1_alg».proof.Proof.Gen.KernelIdeal.Frame
import proofs.«154697_j62981400429144_1_alg».proof.Proof.Region0
import proofs.«154697_j62981400429144_1_alg».proof.Proof.Region1
import proofs.«154697_j62981400429144_1_alg».proof.Proof.HostSide
import proofs.«154697_j62981400429144_1_alg».proof.Proof.Layer

set_option maxRecDepth 16384

noncomputable section

namespace Cert.KernelIdeal.Out

open Idealize.ShloMosaic Idealize.ShloMosaic.TcCoe Idealize.SL.Sem
open Cert.KernelIdeal Cert.KernelIdeal.Gen Cert.Sage Cert.GCN Cert.KernelIdeal.Glue

/-- The first layer's output: the rectified layer of the nodes' rows and their neighbours' mean. -/
def hidden (x : Arr 100000 128) (W1l : Arr 128 128) (b1 : FVec Ideal S128 .f32) (W1r : Arr 128 128) (e : IVec S2x1600000 32) :
    Arr 100000 128 :=
  relu (lin (aggr (F := Ideal) x (srcOf e) (dstOf e) (degInv (dstOf e))) x W1l W1r
    (shapeCast S1x128 b1 Facts₀.shapeCasts_S128_S1x128))

/-- The program's result: the second layer of the first layer's output and ITS neighbours' mean. -/
def out (x : Arr 100000 128) (W1l : Arr 128 128) (b1 : FVec Ideal S128 .f32) (W1r W2l : Arr 128 128)
    (b2 : FVec Ideal S128 .f32) (W2r : Arr 128 128) (e : IVec S2x1600000 32) : Arr 100000 128 :=
  lin (aggr (F := Ideal) (hidden x W1l b1 W1r e) (srcOf e) (dstOf e) (degInv (dstOf e))) (hidden x W1l b1 W1r e) W2l W2r
    (shapeCast S1x128 b2 Facts₀.shapeCasts_S128_S1x128)

variable (m : (ℓ : Loc nD τ sig) → Buf (Elt Ideal) ℓ) (ρ : Dev nD → PrngReg)

/-- The last valuation's entry for the result buffer is `out` of the launch contents of the arguments. -/
theorem W6_out (c : Dev nD) :
    W6 m ρ c (Proc.devRef .tc main_v44)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  -- after the first two stretches
  have e2_v1 : W2 m ρ c (Proc.devRef .tc main_v1) = srcOf (m ((c : Thread nD τ).loc main_arg7)) := pre_v1 (W0 m ρ c)
  have e2_v3 : W2 m ρ c (Proc.devRef .tc main_v3) = dstOf (m ((c : Thread nD τ).loc main_arg7)) := pre_v3 (W0 m ρ c)
  have e2_v14 : W2 m ρ c (Proc.devRef .tc main_v14) = degInv (F := Ideal) (dstOf (m ((c : Thread nD τ).loc main_arg7))) := pre_v14 (W0 m ρ c)
  have e2_a0 : W2 m ρ c (Proc.devRef .tc main_arg0) = m ((c : Thread nD τ).loc main_arg0) := pre_arg0 (W0 m ρ c)
  have e2_a1 : W2 m ρ c (Proc.devRef .tc main_arg1) = m ((c : Thread nD τ).loc main_arg1) := pre_arg1 (W0 m ρ c)
  have e2_a2 : W2 m ρ c (Proc.devRef .tc main_arg2) = m ((c : Thread nD τ).loc main_arg2) := pre_arg2 (W0 m ρ c)
  have e2_a3 : W2 m ρ c (Proc.devRef .tc main_arg3) = m ((c : Thread nD τ).loc main_arg3) := pre_arg3 (W0 m ρ c)
  have e2_a4 : W2 m ρ c (Proc.devRef .tc main_arg4) = m ((c : Thread nD τ).loc main_arg4) := pre_arg4 (W0 m ρ c)
  have e2_a5 : W2 m ρ c (Proc.devRef .tc main_arg5) = m ((c : Thread nD τ).loc main_arg5) := pre_arg5 (W0 m ρ c)
  have e2_a6 : W2 m ρ c (Proc.devRef .tc main_arg6) = m ((c : Thread nD τ).loc main_arg6) := pre_arg6 (W0 m ρ c)
  -- at the first region's entry
  have e3_27 : V3 m ρ c main_v27 = aggr (F := Ideal) (W2 m ρ c (Proc.devRef .tc main_arg0)) (W2 m ρ c (Proc.devRef .tc main_v1))
      (W2 m ρ c (Proc.devRef .tc main_v3)) (W2 m ρ c (Proc.devRef .tc main_v14)) := mid_v27 (W2 m ρ c)
  have e3_28 : V3 m ρ c main_v28 = shapeCast S1x128 (W2 m ρ c (Proc.devRef .tc main_arg2)) Facts₀.shapeCasts_S128_S1x128 := mid_v28 (W2 m ρ c)
  have e3_a0 : V3 m ρ c main_arg0 = W2 m ρ c (Proc.devRef .tc main_arg0) := mid_arg0 (W2 m ρ c)
  have e3_a1 : V3 m ρ c main_arg1 = W2 m ρ c (Proc.devRef .tc main_arg1) := mid_arg1 (W2 m ρ c)
  have e3_a3 : V3 m ρ c main_arg3 = W2 m ρ c (Proc.devRef .tc main_arg3) := mid_arg3 (W2 m ρ c)
  have e3_a4 : W3 m ρ c (Proc.devRef .tc main_arg4) = W2 m ρ c (Proc.devRef .tc main_arg4) := mid_arg4 (W2 m ρ c)
  have e3_a5 : W3 m ρ c (Proc.devRef .tc main_arg5) = W2 m ρ c (Proc.devRef .tc main_arg5) := mid_arg5 (W2 m ρ c)
  have e3_a6 : W3 m ρ c (Proc.devRef .tc main_arg6) = W2 m ρ c (Proc.devRef .tc main_arg6) := mid_arg6 (W2 m ρ c)
  have e3_v1 : W3 m ρ c (Proc.devRef .tc main_v1) = W2 m ρ c (Proc.devRef .tc main_v1) := mid_v1 (W2 m ρ c)
  have e3_v3 : W3 m ρ c (Proc.devRef .tc main_v3) = W2 m ρ c (Proc.devRef .tc main_v3) := mid_v3 (W2 m ρ c)
  have e3_v14 : W3 m ρ c (Proc.devRef .tc main_v14) = W2 m ρ c (Proc.devRef .tc main_v14) := mid_v14 (W2 m ρ c)
  -- at the first region's exit
  have e4_29 : W4 m ρ c (Proc.devRef .tc main_v29) = Layer0.G (V3 m ρ) c := (W4_arr m ρ c 5).trans (Layer0.final (V3 m ρ) c)
  have e4_v1 : W4 m ρ c (Proc.devRef .tc main_v1) = W3 m ρ c (Proc.devRef .tc main_v1) := W4_of_ne m ρ c main_v1 (by decide)
  have e4_v3 : W4 m ρ c (Proc.devRef .tc main_v3) = W3 m ρ c (Proc.devRef .tc main_v3) := W4_of_ne m ρ c main_v3 (by decide)
  have e4_v14 : W4 m ρ c (Proc.devRef .tc main_v14) = W3 m ρ c (Proc.devRef .tc main_v14) := W4_of_ne m ρ c main_v14 (by decide)
  have e4_a4 : W4 m ρ c (Proc.devRef .tc main_arg4) = W3 m ρ c (Proc.devRef .tc main_arg4) := W4_of_ne m ρ c main_arg4 (by decide)
  have e4_a5 : W4 m ρ c (Proc.devRef .tc main_arg5) = W3 m ρ c (Proc.devRef .tc main_arg5) := W4_of_ne m ρ c main_arg5 (by decide)
  have e4_a6 : W4 m ρ c (Proc.devRef .tc main_arg6) = W3 m ρ c (Proc.devRef .tc main_arg6) := W4_of_ne m ρ c main_arg6 (by decide)
  -- at the second region's entry
  have e5_42 : V5 m ρ c main_v42 = aggr (F := Ideal) (W4 m ρ c (Proc.devRef .tc main_v29)) (W4 m ρ c (Proc.devRef .tc main_v1))
      (W4 m ρ c (Proc.devRef .tc main_v3)) (W4 m ρ c (Proc.devRef .tc main_v14)) := post_v42 (W4 m ρ c)
  have e5_43 : V5 m ρ c main_v43 = shapeCast S1x128 (W4 m ρ c (Proc.devRef .tc main_arg5)) Facts₀.shapeCasts_S128_S1x128 := post_v43 (W4 m ρ c)
  have e5_29 : V5 m ρ c main_v29 = W4 m ρ c (Proc.devRef .tc main_v29) := post_v29 (W4 m ρ c)
  have e5_a4 : V5 m ρ c main_arg4 = W4 m ρ c (Proc.devRef .tc main_arg4) := post_arg4 (W4 m ρ c)
  have e5_a6 : V5 m ρ c main_arg6 = W4 m ρ c (Proc.devRef .tc main_arg6) := post_arg6 (W4 m ρ c)
  -- the second region's output array
  refine ((W6_arr m ρ c 5).trans (Layer1.final (V5 m ρ) c)).trans ?_
  unfold Layer1.G
  rw [e5_42, e5_43, e5_29, e5_a4, e5_a6, e4_29, e4_v1, e4_v3, e4_v14, e4_a4, e4_a5, e4_a6]
  unfold Layer0.G
  rw [e3_27, e3_28, e3_a0, e3_a1, e3_a3, e3_a4, e3_a5, e3_a6, e3_v1, e3_v3, e3_v14,
    e2_v1, e2_v3, e2_v14, e2_a0, e2_a1, e2_a2, e2_a3, e2_a4, e2_a5, e2_a6]
  rfl

end Cert.KernelIdeal.Out

end
-- ==== Proof.Bridge.lean ====
/-
  The reference's result is the kernel program's result, as functions of the arguments.

  The reference computes the same edge rows, inverse in-degrees and neighbours' means with the same host operations,
  and each layer as  (agg·Wl + b) + x·Wr  with the bias a vector broadcast over the rows, the first layer followed by
  a maximum with zero. By `host_lin` (Layer.lean) that sum is `lin` of the same arrays with the bias laid as a row —
  addition of extended reals is commutative and associative —, and the maximum with the zero array is `relu`. So the
  reference's composed term is `out` (KernelValue.lean) of its arguments.
-/
import proofs.«154697_j62981400429144_1_alg».proof.Proof.RefRun
import proofs.«154697_j62981400429144_1_alg».proof.Proof.KernelValue

set_option maxRecDepth 16384

noncomputable section

namespace Cert.Bridge

open Idealize.ShloMosaic Idealize.ShloMosaic.TcCoe Idealize.ShloMosaic.ValueIdx Idealize.SL.Sem
open Cert.Sage Cert.GCN Cert.KernelIdeal.Glue Cert.KernelIdeal.Out

/-- The rectifier is the maximum with the zero array. -/
theorem relu_eq_max {n : Nat} (v : FVec Ideal ⟨2, ![n, 128]⟩ .f32)
    (h : (⟨0, ![]⟩ : Shape).BroadcastsInDim ⟨2, ![n, 128]⟩ ![]) :
    (relu v : Arr n 128) = maximumf v (broadcastInDim ⟨2, ![n, 128]⟩ ![] h (constant (F := Ideal) ⟨0, ![]⟩ .f32 0x00000000#32)) := by
  funext i
  rfl

/-- The reference's composed term is `out` of its arguments. -/
theorem ref_out (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v53 (F := Ideal) m' c
      = out (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  unfold out Cert.KernelIdeal.Out.hidden
  rw [← host_lin (n := 100000) _ _ _ _ _ (by decide) (by decide) Cert.KernelIdeal.Facts₀.shapeCasts_S128_S1x128]
  rw [relu_eq_max _ (by decide)]
  rw [← host_lin (n := 100000) _ _ _ _ _ (by decide) (by decide) Cert.KernelIdeal.Facts₀.shapeCasts_S128_S1x128]
  unfold Cert.ReferenceIdeal.ValueP.res_main_v53 aggr degInv deg srcOf dstOf
  rfl

end Cert.Bridge

end
-- ==== Proof.lean ====
/-
  Two layers of mean-aggregation graph convolution over 100000 nodes and 1600000 edges: a kernel program against its
  host reference, equal as extended reals.

  Both programs compute, with the same host operations, the edges' sources and destinations, the inverse in-degrees
  and the mean of each node's neighbours' rows. A layer is then  agg·Wl + x·Wr + b : the kernel program computes it in
  a region over 20 blocks of 5000 rows (the two products, then the bias row; the first layer clamped below at zero),
  the reference on the host as (agg·Wl + b) + x·Wr. The two orders of addition agree on the extended reals with no side
  condition, so the precondition (finite inputs) is never opened.

  The pieces: Layer.lean (a layer as a function of whole arrays, and both programs' forms of it), Region0.lean and
  Region1.lean (each region's output array is the layer of the arrays it finds), HostSide.lean (the stretches of host
  operations as functions of what they read), KernelRun.lean (the kernel program's run with its result buffer named),
  KernelValue.lean (the kernel program's result as a function of its arguments), RefRun.lean (the reference's run),
  Bridge.lean (the reference's result is the same function). The ideal pass rewrote nothing, so the idealized kernel
  program is the printed one read at the ideal values.
-/
import proofs.«154697_j62981400429144_1_alg».proof.Defs
import proofs.«154697_j62981400429144_1_alg».proof.Proof.Gen.Kernel
import proofs.«154697_j62981400429144_1_alg».proof.Proof.Gen.Kernel.Skeleton
import proofs.«154697_j62981400429144_1_alg».proof.Proof.Gen.Kernel.Launch
import proofs.«154697_j62981400429144_1_alg».proof.Proof.Gen.Kernel.Points
import proofs.«154697_j62981400429144_1_alg».proof.Proof.Gen.Kernel.Frame
import proofs.«154697_j62981400429144_1_alg».proof.Proof.Gen.KernelIdeal
import proofs.«154697_j62981400429144_1_alg».proof.Proof.Gen.KernelIdeal.Skeleton
import proofs.«154697_j62981400429144_1_alg».proof.Proof.Gen.KernelIdeal.Launch
import proofs.«154697_j62981400429144_1_alg».proof.Proof.Gen.KernelIdeal.Points
import proofs.«154697_j62981400429144_1_alg».proof.Proof.Gen.KernelIdeal.Frame
import proofs.«154697_j62981400429144_1_alg».proof.Proof.Gen.ReferenceIdeal
import proofs.«154697_j62981400429144_1_alg».proof.Proof.Gen.Pre_finite_inputs
import proofs.«154697_j62981400429144_1_alg».proof.Proof.KernelRun
import proofs.«154697_j62981400429144_1_alg».proof.Proof.KernelValue
import proofs.«154697_j62981400429144_1_alg».proof.Proof.RefRun
import proofs.«154697_j62981400429144_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program at the ideal values. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories agreeing on the arguments both programs end with the result array at `out` of the arguments and
    the edge list as given. -/
theorem algebraic : Cert.algebraic_KernelIdeal_ReferenceIdeal := by
  intro m ρ m' ρ' _ hagree
  refine ⟨fun c => Cert.KernelIdeal.Out.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => m ((c.tc : Thread Cert.KernelIdeal.nD Cert.KernelIdeal.τ).loc Cert.KernelIdeal.main_arg7), ?_, ?_⟩
  · refine (θ_run Cert.KernelIdeal.defs _ _).mono (fun r h c => ?_) (Cert.KernelIdeal.Run.run_out (F := Ideal) m ρ)
    obtain ⟨h44, h0, h1, h2, h3, h4, h5, h6, h7⟩ := h c
    exact ⟨h44.trans (Cert.KernelIdeal.Out.W6_out m ρ c), h7, h0, h1, h2, h3, h4, h5, h6, h7⟩
  · refine (θ_run Cert.ReferenceIdeal.defs _ _).mono (fun r h c => ?_) (Cert.ReferenceIdeal.ValueP.run (F := Ideal) m' ρ')
    obtain ⟨h53, -, h0, h1, h2, h3, h4, h5, h6, h7⟩ := h c
    obtain ⟨a0, a1, a2, a3, a4, a5, a6, a7⟩ := hagree c
    refine ⟨?_, h7.trans a7, h0, h1, h2, h3, h4, h5, h6, h7⟩
    rw [h53, Cert.Bridge.ref_out m' c, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
